-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x3200000 : Shape := ⟨2, ![2, 3200000]⟩
abbrev S16x32 : Shape := ⟨2, ![16, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S32x2 1) : IVec S_ 1 :=
  let main_c_5 : IVec S_ 1 := constantI S_ 1 1#1
  let main_v17 : IVec S_ 1 := (fun x v => Host.reduce IntOp.andi x v reducesTo_S32x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x16 .f32) (main_arg1 : IVec S2x3200000 32) (main_arg2 : FVec F S16x32 .f32) (main_arg3 : FVec F S32 .f32) (main_arg4 : FVec F S32x2 .f32) (main_arg5 : FVec F S2 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x32 .f32 := Host.absf main_arg2
  let main_cst_0 : FVec F S_ .f32 := constant S_ .f32 0x7F800000#32
  let main_v5 : FVec F S16x32 .f32 := broadcastInDim S16x32 ![] bcast_S_S16x32 main_cst_0
  let main_v6 : IVec S16x32 1 := cmpf .olt main_v4 main_v5
  let main_c_1 : IVec S_ 1 := constantI S_ 1 1#1
  let main_v7 : IVec S_ 1 := (fun x v => Host.reduce IntOp.andi x v reducesTo_S16x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x2 .f32 := Host.absf main_arg4
  let main_cst_4 : FVec F S_ .f32 := constant S_ .f32 0x7F800000#32
  let main_v15 : FVec F S32x2 .f32 := broadcastInDim S32x2 ![] bcast_S_S32x2 main_cst_4
  let main_v16 : IVec S32x2 1 := cmpf .olt main_v14 main_v15
  fn_part1 (F := F) main_arg5 main_v13 main_v16
-- ==== Kernel.lean ====
abbrev S100000x16 : Shape := ⟨2, ![100000, 16]⟩
abbrev S2x3200000 : Shape := ⟨2, ![2, 3200000]⟩
abbrev S16x32 : Shape := ⟨2, ![16, 32]⟩
abbrev S32 : Shape := ⟨1, ![32]⟩
abbrev S32x2 : Shape := ⟨2, ![32, 2]⟩
abbrev S2 : Shape := ⟨1, ![2]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S5000x16 : Shape := ⟨2, ![5000, 16]⟩
abbrev S5000x32 : Shape := ⟨2, ![5000, 32]⟩
abbrev S3300000x32 : Shape := ⟨2, ![3300000, 32]⟩
abbrev S1x32 : Shape := ⟨2, ![1, 32]⟩
abbrev S100000x2 : Shape := ⟨2, ![100000, 2]⟩
abbrev S5000x2 : Shape := ⟨2, ![5000, 2]⟩
abbrev S3300000x2 : Shape := ⟨2, ![3300000, 2]⟩
abbrev S1x2 : Shape := ⟨2, ![1, 2]⟩

abbrev nBuf : Space → Nat
  | .hbm => 84
  | .vmem => 11
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S16x32, .f32⟩
  | .hbm, ⟨3, _⟩ => ⟨S32, .f32⟩
  | .hbm, ⟨4, _⟩ => ⟨S32x2, .f32⟩
  | .hbm, ⟨5, _⟩ => ⟨S2, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x32, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x32, .f32⟩
  | .hbm, ⟨56, _⟩ => ⟨S3300000x1, .f32⟩
  | .hbm, ⟨57, _⟩ => ⟨S3300000x32, .f32⟩
  | .hbm, ⟨58, _⟩ => ⟨S3300000x32, .f32⟩
  | .hbm, ⟨59, _⟩ => ⟨S_, .f32⟩
  | .hbm, ⟨60, _⟩ => ⟨S100000x32, .f32⟩
  | .hbm, ⟨61, _⟩ => ⟨S3300000x1, .i32⟩
  | .hbm, ⟨62, _⟩ => ⟨S100000x32, .f32⟩
  | .hbm, ⟨63, _⟩ => ⟨S1x32, .f32⟩
  | .hbm, ⟨64, _⟩ => ⟨S100000x2, .f32⟩
  | .hbm, ⟨65, _⟩ => ⟨S_, .i32⟩
  | .hbm, ⟨66, _⟩ => ⟨S3300000, .i32⟩
  | .hbm, ⟨67, _⟩ => ⟨S3300000, .i1⟩
  | .hbm, ⟨68, _⟩ => ⟨S_, .i32⟩
  | .hbm, ⟨69, _⟩ => ⟨S3300000, .i32⟩
  | .hbm, ⟨70, _⟩ => ⟨S3300000, .i32⟩
  | .hbm, ⟨71, _⟩ => ⟨S3300000, .i32⟩
  | .hbm, ⟨72, _⟩ => ⟨S3300000x1, .i32⟩
  | .hbm, ⟨73, _⟩ => ⟨S3300000x2, .f32⟩
  | .hbm, ⟨74, _⟩ => ⟨S3300000x1, .f32⟩
  | .hbm, ⟨75, _⟩ => ⟨S3300000x2, .f32⟩
  | .hbm, ⟨76, _⟩ => ⟨S3300000x2, .f32⟩
  | .hbm, ⟨77, _⟩ => ⟨S_, .f32⟩
  | .hbm, ⟨78, _⟩ => ⟨S100000x2, .f32⟩
  | .hbm, ⟨79, _⟩ => ⟨S3300000x1, .i32⟩
  | .hbm, ⟨80, _⟩ => ⟨S100000x2, .f32⟩
  | .hbm, ⟨81, _⟩ => ⟨S1x2, .f32⟩
  | .hbm, ⟨82, _⟩ => ⟨S100000x2, .f32⟩
  | .hbm, ⟨83, _⟩ => ⟨S100000x2, .f32⟩
  | .local _ .vmem, ⟨0, _⟩ => ⟨S5000x16, .f32⟩
  | .local _ .vmem, ⟨1, _⟩ => ⟨S5000x16, .f32⟩
  | .local _ .vmem, ⟨2, _⟩ => ⟨S16x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S1x32, .f32⟩
  | .local _ .vmem, ⟨8, _⟩ => ⟨S32x2, .f32⟩
  | .local _ .vmem, ⟨9, _⟩ => ⟨S5000x2, .f32⟩
  | .local _ .vmem, ⟨10, _⟩ => ⟨S5000x2, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x32_S16x32_0_0 : ∀ a, (![0, 0] : Fin 2 → Nat) a + S16x32.size a ≤ S16x32.size a
  h_S16x32 : 0 < S16x32.numel
  inb_S5000x32_S5000x32_0_0 : ∀ a, (![0, 0] : Fin 2 → Nat) a + S5000x32.size a ≤ S5000x32.size a
  h_S5000x32 : 0 < S5000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x2_S32x2_0_0 : ∀ a, (![0, 0] : Fin 2 → Nat) a + S32x2.size a ≤ S32x2.size a
  h_S32x2 : 0 < S32x2.numel
  inb_S5000x2_S5000x2_0_0 : ∀ a, (![0, 0] : Fin 2 → Nat) a + S5000x2.size a ≤ S5000x2.size a
  h_S5000x2 : 0 < S5000x2.numel
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x16_S16x32_S5000x32_1_0_0_1_n_n_wf : DotDims.WF S5000x16 S16x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S5000x32_S32x2_S5000x2_1_0_0_1_n_n_wf : DotDims.WF S5000x32 S32x2 S5000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x32.size a ≤ S16x32.size a
  hwx0_1 : ∀ i : grid0.Coords, EltTy.bits .f32 = 32 ∨ (Rect.block (s := S16x32) S16x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x2.size a ≤ S32x2.size a
  hwx1_2 : ∀ i : grid1.Coords, EltTy.bits .f32 = 32 ∨ (Rect.block (s := S32x2) S32x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x2.size a ≤ S100000x2.size a
  hwx1_3 : ∀ i : grid1.Coords, EltTy.bits .f32 = 32 ∨ (Rect.block (s := S100000x2) S5000x2.size (cc1_transform_3 i) (hinb1_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S5000x32_S32x2_S5000x2_1_0_0_1_n_n : DotDims S5000x32 S32x2 S5000x2 where
  lhsContracting := [1]
  rhsContracting := [0]
  lhsNonContracting := [0]
  rhsNonContracting := [1]
  lhsBatch := []
  rhsBatch := []
  wf := dot_S5000x32_S32x2_S5000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x16 : Shape := ⟨2, ![100000, 16]⟩
abbrev S2x3200000 : Shape := ⟨2, ![2, 3200000]⟩
abbrev S16x32 : Shape := ⟨2, ![16, 32]⟩
abbrev S32 : Shape := ⟨1, ![32]⟩
abbrev S32x2 : Shape := ⟨2, ![32, 2]⟩
abbrev S2 : Shape := ⟨1, ![2]⟩
abbrev S1x3200000 : Shape := ⟨2, ![1, 3200000]⟩
abbrev S3200000 : Shape := ⟨1, ![3200000]⟩
abbrev S100000x32 : Shape := ⟨2, ![100000, 32]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x32 : Shape := ⟨2, ![3300000, 32]⟩
abbrev S1x32 : Shape := ⟨2, ![1, 32]⟩
abbrev S100000x2 : Shape := ⟨2, ![100000, 2]⟩
abbrev S3300000x2 : Shape := ⟨2, ![3300000, 2]⟩
abbrev S1x2 : Shape := ⟨2, ![1, 2]⟩

abbrev nBuf : Space → Nat
  | .hbm => 125
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S16x32, .f32⟩
  | .hbm, ⟨3, _⟩ => ⟨S32, .f32⟩
  | .hbm, ⟨4, _⟩ => ⟨S32x2, .f32⟩
  | .hbm, ⟨5, _⟩ => ⟨S2, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000x32, .f32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x32, .f32⟩
  | .hbm, ⟨56, _⟩ => ⟨S3300000x1, .f32⟩
  | .hbm, ⟨57, _⟩ => ⟨S3300000x32, .f32⟩
  | .hbm, ⟨58, _⟩ => ⟨S3300000x32, .f32⟩
  | .hbm, ⟨59, _⟩ => ⟨S_, .f32⟩
  | .hbm, ⟨60, _⟩ => ⟨S100000x32, .f32⟩
  | .hbm, ⟨61, _⟩ => ⟨S3300000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000x2, .f32⟩
  | .hbm, ⟨70, _⟩ => ⟨S100000, .i32⟩
  | .hbm, ⟨71, _⟩ => ⟨S3300000, .i32⟩
  | .hbm, ⟨72, _⟩ => ⟨S3300000, .i32⟩
  | .hbm, ⟨73, _⟩ => ⟨S_, .f32⟩
  | .hbm, ⟨74, _⟩ => ⟨S3300000, .f32⟩
  | .hbm, ⟨75, _⟩ => ⟨S_, .f32⟩
  | .hbm, ⟨76, _⟩ => ⟨S100000, .f32⟩
  | .hbm, ⟨77, _⟩ => ⟨S3300000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S3300000, .i32⟩
  | .hbm, ⟨89, _⟩ => ⟨S3300000, .i1⟩
  | .hbm, ⟨90, _⟩ => ⟨S_, .i32⟩
  | .hbm, ⟨91, _⟩ => ⟨S3300000, .i32⟩
  | .hbm, ⟨92, _⟩ => ⟨S3300000, .i32⟩
  | .hbm, ⟨93, _⟩ => ⟨S3300000, .i32⟩
  | .hbm, ⟨94, _⟩ => ⟨S3300000x1, .i32⟩
  | .hbm, ⟨95, _⟩ => ⟨S3300000, .f32⟩
  | .hbm, ⟨96, _⟩ => ⟨S_, .i32⟩
  | .hbm, ⟨97, _⟩ => ⟨S3300000, .i32⟩
  | .hbm, ⟨98, _⟩ => ⟨S3300000, .i1⟩
  | .hbm, ⟨99, _⟩ => ⟨S_, .i32⟩
  | .hbm, ⟨100, _⟩ => ⟨S3300000, .i32⟩
  | .hbm, ⟨101, _⟩ => ⟨S3300000, .i32⟩
  | .hbm, ⟨102, _⟩ => ⟨S3300000, .i32⟩
  | .hbm, ⟨103, _⟩ => ⟨S3300000x1, .i32⟩
  | .hbm, ⟨104, _⟩ => ⟨S3300000, .f32⟩
  | .hbm, ⟨105, _⟩ => ⟨S3300000, .f32⟩
  | .hbm, ⟨106, _⟩ => ⟨S_, .i32⟩
  | .hbm, ⟨107, _⟩ => ⟨S3300000, .i32⟩
  | .hbm, ⟨108, _⟩ => ⟨S3300000, .i1⟩
  | .hbm, ⟨109, _⟩ => ⟨S_, .i32⟩
  | .hbm, ⟨110, _⟩ => ⟨S3300000, .i32⟩
  | .hbm, ⟨111, _⟩ => ⟨S3300000, .i32⟩
  | .hbm, ⟨112, _⟩ => ⟨S3300000, .i32⟩
  | .hbm, ⟨113, _⟩ => ⟨S3300000x1, .i32⟩
  | .hbm, ⟨114, _⟩ => ⟨S3300000x2, .f32⟩
  | .hbm, ⟨115, _⟩ => ⟨S3300000x1, .f32⟩
  | .hbm, ⟨116, _⟩ => ⟨S3300000x2, .f32⟩
  | .hbm, ⟨117, _⟩ => ⟨S3300000x2, .f32⟩
  | .hbm, ⟨118, _⟩ => ⟨S_, .f32⟩
  | .hbm, ⟨119, _⟩ => ⟨S100000x2, .f32⟩
  | .hbm, ⟨120, _⟩ => ⟨S3300000x1, .i32⟩
  | .hbm, ⟨121, _⟩ => ⟨S100000x2, .f32⟩
  | .hbm, ⟨122, _⟩ => ⟨S1x2, .f32⟩
  | .hbm, ⟨123, _⟩ => ⟨S100000x2, .f32⟩
  | .hbm, ⟨124, _⟩ => ⟨S100000x2, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x16_S16x32_S100000x32_1_0_0_1_n_n_wf : DotDims.WF S100000x16 S16x32 S100000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x2_S100000x2_1_0_0_1_n_n_wf : DotDims.WF S100000x32 S32x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x2_S100000x2_1_0_0_1_n_n : DotDims S100000x32 S32x2 S100000x2 where
  lhsContracting := [1]
  rhsContracting := [0]
  lhsNonContracting := [0]
  rhsNonContracting := [1]
  lhsBatch := []
  rhsBatch := []
  wf := dot_S100000x32_S32x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.KernelRun.lean ====
/-
  The idealized kernel program's run, with its result named.

  The program is five stretches of host operations around two tiled matrix-product regions. Its buffers' contents at the
  seven boundaries between those pieces are a fold from the launch memory: a host stretch applies its operations in
  order, a region replaces its output array by what its grid points wrote back and keeps every other buffer. Every
  weakly fair execution terminates, and in the final state each buffer the program does not scope holds the last
  boundary's contents. Read at the result buffer, that says the returned array is the fold's value there; read at the
  six argument buffers, that they are unchanged.
-/
import proofs.«142459_j87299505259013_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the value the fold
    of the program's pieces gives its buffer after the last host stretch, and the six arguments end as launched. -/
theorem run_result : θ_run defs (onTc (τ := τ) (main (F := F))) ⟨m, fun _ => 0, ρ⟩ (fun r => ∀ c : Dev nD,
      r.2.mem ((c.tc : Thread nD τ).loc main_v61) = W7 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v61 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Result

end
-- ==== Proof.LibDense.lean ====
/-
  A dense layer read entry by entry, on the extended reals.

  The product of an M×K matrix X by a K×N matrix W has, at entry (r, c), the sum over k of X(r,k)·W(k,c). A tiled
  kernel computes it block of rows by block of rows, each block a product accumulated into a zero splat; a host
  program computes it with one product and no accumulator. Both are this one function, and since each output entry is
  a sum over the contracted coordinate only, a block of rows of the product is the product of that block of rows.
  A bias vector b added along the rows followed by max(·, 0) is read the same way: entry (r, k) is
  max(A(r,k) + b(k), 0). Nothing here cancels or distributes, so every statement holds at the infinities too.
  Stated for any extents.
-/
import Idealize.ShloMosaic.Lib.StackMember
import Idealize.ShloMosaic.Lib.KernelVsHost
import Idealize.ShloMosaic.Lib.ValueLayout
import Idealize.ShloMosaic.Lib.ValueIdx
import Idealize.ShloMosaic.Lib.Pipeline.Value
import Idealize.ShloMosaic.PureOps.Ideal.Laws

noncomputable section

namespace Cert.Dense

open Idealize.ShloMosaic Idealize.ShloMosaic.ValueIdx
open scoped BigOperators

variable {M K N : ℕ}

/-- The float zero word read at the ideal values. -/
abbrev zeroWord : EReal := Ideal.ofBits .f32 0x00000000#32

/-- The product of an M×K matrix by a K×N matrix: entry (r, c) is the sum over k of X(r,k)·W(k,c). -/
def matProd (X : (⟨2, ![M, K]⟩ : Shape).Idx → EReal) (W : (⟨2, ![K, N]⟩ : Shape).Idx → EReal) :
    (⟨2, ![M, N]⟩ : Shape).Idx → EReal :=
  fun i => ∑ k : Fin K, X (ix2 (i 0) k) * W (ix2 k (i 1))

theorem matProd_apply (X : (⟨2, ![M, K]⟩ : Shape).Idx → EReal) (W : (⟨2, ![K, N]⟩ : Shape).Idx → EReal)
    (r : Fin M) (c : Fin N) : matProd X W (ix2 r c) = ∑ k : Fin K, X (ix2 r k) * W (ix2 k c) := rfl

/-- A bias vector added along the rows of an M×K matrix, then the positive part: entry (r, k) is max(A(r,k) + b(k), 0). -/
def biasRelu (A : (⟨2, ![M, K]⟩ : Shape).Idx → EReal) (b : (⟨1, ![K]⟩ : Shape).Idx → EReal) :
    (⟨2, ![M, K]⟩ : Shape).Idx → EReal :=
  fun i => max (A i + b (ix1 (i 1))) zeroWord

theorem biasRelu_apply (A : (⟨2, ![M, K]⟩ : Shape).Idx → EReal) (b : (⟨1, ![K]⟩ : Shape).Idx → EReal)
    (r : Fin M) (k : Fin K) : biasRelu A b (ix2 r k) = max (A (ix2 r k) + b (ix1 k)) zeroWord := rfl

/-- The host's product of two matrices, with the plain contraction (rows of the left against columns of the right), is
    `matProd`. -/
theorem dotGeneral_eq_matProd (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) :
    Host.dotGeneral d none X W = matProd X W := by
  subst hd
  funext i
  obtain ⟨r, c, rfl⟩ : ∃ (r : Fin M) (c : Fin N), i = ix2 r c := ⟨i 0, i 1, eq_ix2 i⟩
  rw [StackMember.dotGeneral_plain_apply, matProd_apply]

/-- A kernel's product accumulated into the zero splat, with the plain contraction, is `matProd`: the accumulator
    contributes 0 + s = s. -/
theorem matmul_zero_eq_matProd (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) :
    matmul d none X W (constant ⟨2, ![M, N]⟩ .f32 0x00000000#32) = matProd X W := by
  rw [matmul_zero_eq_dotGeneral]
  exact dotGeneral_eq_matProd d hd X W

/-- The kernel's spelling of the bias step on a block — the bias held as a one-row matrix and broadcast down the rows,
    added, and compared with a zero splat — is `biasRelu` of the row read as a vector. -/
theorem blockBiasRelu_eq (A : FVec Ideal ⟨2, ![M, K]⟩ .f32) (B : FVec Ideal ⟨2, ![1, K]⟩ .f32)
    (hb : (⟨2, ![1, K]⟩ : Shape).Broadcasts ⟨2, ![M, K]⟩) :
    maximumf (addf A (broadcastTo ⟨2, ![M, K]⟩ B hb)) (broadcast ⟨2, ![M, K]⟩ (Scalar.ofBits (F := Ideal) .f32 0x00000000#32))
      = biasRelu A (fun j => B (ix2 (0 : Fin 1) (j 0))) := by
  funext i
  obtain ⟨r, k, rfl⟩ : ∃ (r : Fin M) (k : Fin K), i = ix2 r k := ⟨i 0, i 1, eq_ix2 i⟩
  rw [maximumf_apply, addf_apply, broadcastTo_1b_ab_apply, biasRelu_apply]
  rfl

end Cert.Dense

end
-- ==== Proof.Region0.lean ====
/-
  The first tiled region: h = x · W1, twenty blocks of 5000 rows.

  At grid point t the body loads rows 5000·t … 5000·t + 4999 of x and the whole of W1, multiplies them into a zero
  accumulator and stores the 5000×32 result, which is written back as rows 5000·t … of the output array. A block of
  rows of a product is the product of that block of rows, so what point t writes back is block t of the whole product;
  the twenty blocks tile the 100000 rows, so after the region the output array is the whole product x · W1, whatever
  the buffers held when the region was entered.
-/
import proofs.«142459_j87299505259013_1_alg».proof.Proof.Gen.KernelIdeal.Frame
import proofs.«142459_j87299505259013_1_alg».proof.Proof.LibDense

set_option maxRecDepth 16384

noncomputable section

namespace Cert.KernelIdeal.Region0

open Idealize.ShloMosaic Idealize.ShloMosaic.TcCoe Idealize.ShloMosaic.ValueIdx
open Idealize.SL.Sem
open Idealize.ShloMosaic.Pipeline (Dat)
open Cert.KernelIdeal Cert.KernelIdeal.Gen Cert.Dense

-- The contents of core `c`'s buffers when the region is entered: anything.
variable (V : (c : Dev nD) → (b : Ref sig .tc) → Buf (Elt Ideal) ((c : Thread nD τ).loc b))

theorem hz : (![0, 0] : Fin 2 → Nat) = fun _ => 0 := funext fun a => by fin_cases a <;> rfl

/-- The body's arithmetic on a block: the product of the loaded rows by the loaded weights (the change of float format
    of each operand is the identity at the ideal values). -/
theorem pay_eq (x : Vec Ideal S5000x16 .f32) (w : Vec Ideal S16x32 .f32) : k0_pay1 (F := Ideal) x w = matProd x w := by
  unfold k0_pay1
  exact matmul_zero_eq_matProd _ rfl _ _

/-- The windows' block indices at a point: the input rows and the output rows move together, one block per point; the
    weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The product of block `t` of the rows of X by the whole of W, at an entry of the block, is the whole product at that
    entry's place in the array: the input block's rows are the output block's rows, and the contracted coordinate
    runs over the whole of its axis in both. -/
theorem block_read (X : S100000x16.Idx → EReal) (W : S16x32.Idx → EReal) (t : Fin cfg0.N) (j : S5000x32.Idx) :
    (∑ k : Fin 16, X (((cfg0.win 0).blk t).view.emb (ix2 (j 0) k)) * W (((cfg0.win 1).blk t).view.emb (ix2 k (j 1))))
      = ∑ k : Fin 16, X (ix2 ((((cfg0.win 2).blk t).view.emb j) 0) k) * W (ix2 k ((((cfg0.win 2).blk t).view.emb j) 1)) := by
  obtain ⟨e0, e1, e2, e3, e4, e5⟩ := idx_facts t
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 16 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 16 + 1 * k.val = k.val; omega
    | ⟨1, _⟩ => show win0_1.index t (1 : Fin 2) * 32 + 1 * (j 1).val = win0_2.index t (1 : Fin 2) * 32 + 1 * (j 1).val; omega
  exact congrArg₂ (· * ·) (congrArg X h0) (congrArg W h1)

/-- What point `t` writes back is block `t` of the whole product. -/
theorem flushed_eq (c : Dev nD) (t : Fin cfg0.N) :
    (dat0 V c).flushed 2 t
      = ((cfg0.win 2).blk t).view.read (Elt Ideal) (matProd (V c main_arg0) (V c main_arg2)) := by
  show (cfg0.win 2).cut (grid0.coords t) ((dat0 V c).after 2 t) = _
  rw [after0_2]
  unfold out0_2
  rw [View.canon_unit_zero hz]
  simp only [View.ld_unit_zero (S := S5000x16) hz, View.ld_unit_zero (S := S16x32) hz]
  funext j
  exact (congrFun (pay_eq (iblk0 V c 0 t) (iblk0 V c 1 t)) j).trans (block_read (V c main_arg0) (V c main_arg2) t j)

/-- An index of the output array is in point `t`'s block iff each coordinate is in the block's range on its axis. -/
theorem mem_blk (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v30).slice (win0_2.rect t)).set ↔ _
  rw [View.set_slice_whole, Rect.mem_set_unit]
  exact Iff.rfl

/-- The twenty row blocks tile the array: row r lies in block r / 5000. -/
theorem cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 20 := N_0
  let t : Fin cfg0.N := ⟨(i 0).val / 5000, by omega⟩
  have ht : t.val = (i 0).val / 5000 := rfl
  obtain ⟨e0, e1, e2, e3, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 32 ≤ (i 1).val ∧ (i 1).val < win0_2.index t (1 : Fin 2) * 32 + 32; omega

/-- After the region its output array is the whole product of the two input arrays as the region found them. -/
theorem final (c : Dev nD) :
    (dat0 V c).arrAt 2 cfg0.N = matProd (V c main_arg0) (V c main_arg2) :=
  (dat0 V c).arrAt_eq_of_cover 2 (matProd (V c main_arg0) (V c main_arg2)) (fun t _ => flushed_eq V c t) cover

end Cert.KernelIdeal.Region0

end
-- ==== Proof.Region1.lean ====
/-
  The second tiled region: h2 = max(agg + b1, 0) · W2, twenty blocks of 5000 rows.

  At grid point t the body loads rows 5000·t … 5000·t + 4999 of the aggregated features, the bias as a one-row matrix
  and the whole of W2; it adds the bias along the rows, takes the positive part, multiplies by W2 into a zero
  accumulator and stores the 5000×2 result, written back as rows 5000·t … of the output array. The bias step acts on
  each entry separately and a block of rows of a product is the product of that block of rows, so what point t writes
  back is block t of  max(agg + b1, 0) · W2  taken over the whole arrays; the twenty blocks tile the 100000 rows.
-/
import proofs.«142459_j87299505259013_1_alg».proof.Proof.Gen.KernelIdeal.Frame
import proofs.«142459_j87299505259013_1_alg».proof.Proof.LibDense

set_option maxRecDepth 16384

noncomputable section

namespace Cert.KernelIdeal.Region1

open Idealize.ShloMosaic Idealize.ShloMosaic.TcCoe Idealize.ShloMosaic.ValueIdx
open Idealize.SL.Sem
open Idealize.ShloMosaic.Pipeline (Dat)
open Cert.KernelIdeal Cert.KernelIdeal.Gen Cert.Dense

-- The contents of core `c`'s buffers when the region is entered: anything.
variable (V : (c : Dev nD) → (b : Ref sig .tc) → Buf (Elt Ideal) ((c : Thread nD τ).loc b))

theorem hz : (![0, 0] : Fin 2 → Nat) = fun _ => 0 := funext fun a => by fin_cases a <;> rfl

/-- A one-row matrix read as the vector of its row. -/
abbrev rowVec (B : S1x32.Idx → EReal) : (⟨1, ![32]⟩ : Shape).Idx → EReal := fun j => B (ix2 (0 : Fin 1) (j 0))

/-- The body's arithmetic on a block: the bias added along the rows, the positive part, then the product with the
    weights (the two casts to the same shape and the changes of float format are identities). -/
theorem pay_eq (a : Vec Ideal S5000x32 .f32) (b : Vec Ideal S1x32 .f32) (w : Vec Ideal S32x2 .f32) :
    k1_pay1 (F := Ideal) a b w = matProd (biasRelu a (rowVec b)) w := by
  unfold k1_pay1
  refine (matmul_zero_eq_matProd _ rfl _ _).trans ?_
  show matProd (maximumf (addf (shapeCast S5000x32 a shapeCasts_S5000x32_S5000x32)
      (broadcastTo S5000x32 (shapeCast S1x32 b shapeCasts_S1x32_S1x32) broadcasts_S1x32_S5000x32))
      (broadcast S5000x32 (Scalar.ofBits (F := Ideal) .f32 0x00000000#32))) w = _
  rw [shapeCast_self, shapeCast_self, blockBiasRelu_eq]

/-- The windows' block indices at a point: the feature rows and the output rows move together, one block per point; the
    bias row and the weights stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The layer applied to block `t` of the rows of A (with the whole bias row and the whole of W), at an entry of the
    block, is the layer applied to the whole arrays at that entry's place in the array. -/
theorem block_read (A : S100000x32.Idx → EReal) (B : S1x32.Idx → EReal) (W : S32x2.Idx → EReal) (t : Fin cfg1.N) (j : S5000x2.Idx) :
    (∑ k : Fin 32, max (A (((cfg1.win 0).blk t).view.emb (ix2 (j 0) k))
          + B (((cfg1.win 1).blk t).view.emb (ix2 (0 : Fin 1) k))) zeroWord
        * W (((cfg1.win 2).blk t).view.emb (ix2 k (j 1))))
      = ∑ k : Fin 32, max (A (ix2 ((((cfg1.win 3).blk t).view.emb j) 0) k) + B (ix2 (0 : Fin 1) k)) zeroWord
        * W (ix2 k ((((cfg1.win 3).blk t).view.emb j) 1)) := by
  obtain ⟨e0, e1, e2, e3, e4, e5, e6, e7⟩ := idx_facts t
  refine Finset.sum_congr rfl fun k _ => ?_
  have h0 : ((cfg1.win 0).blk t).view.emb (ix2 (j 0) k) = ix2 ((((cfg1.win 3).blk t).view.emb j) 0) k := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 32 + 1 * k.val = k.val; omega
  have h1 : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 32 + 1 * k.val = k.val; omega
  have h2 : ((cfg1.win 2).blk t).view.emb (ix2 k (j 1)) = ix2 k ((((cfg1.win 3).blk t).view.emb j) 1) := by
    funext a; apply Fin.ext
    match a with
    | ⟨0, _⟩ => show win1_2.index t (0 : Fin 2) * 32 + 1 * k.val = k.val; omega
    | ⟨1, _⟩ => show win1_2.index t (1 : Fin 2) * 2 + 1 * (j 1).val = win1_3.index t (1 : Fin 2) * 2 + 1 * (j 1).val; omega
  exact congrArg₂ (· * ·) (congrArg (max · zeroWord) (congrArg₂ (· + ·) (congrArg A h0) (congrArg B h1))) (congrArg W h2)

/-- What point `t` writes back is block `t` of the whole layer. -/
theorem flushed_eq (c : Dev nD) (t : Fin cfg1.N) :
    (dat1 V c).flushed 3 t
      = ((cfg1.win 3).blk t).view.read (Elt Ideal)
          (matProd (biasRelu (V c main_v43) (rowVec (V c main_v44))) (V c main_arg4)) := by
  show (cfg1.win 3).cut (grid1.coords t) ((dat1 V c).after 3 t) = _
  rw [after1_3]
  unfold out1_3
  rw [View.canon_unit_zero hz]
  simp only [View.ld_unit_zero (S := S5000x32) hz, View.ld_unit_zero (S := S1x32) hz, View.ld_unit_zero (S := S32x2) hz]
  funext j
  exact (congrFun (pay_eq (iblk1 V c 0 t) (iblk1 V c 1 t) (iblk1 V c 2 t)) j).trans
    (block_read (V c main_v43) (V c main_v44) (V c main_arg4) t j)

/-- An index of the output array is in point `t`'s block iff each coordinate is in the block's range on its axis. -/
theorem mem_blk (t : Fin cfg1.N) (i : S100000x2.Idx) :
    i ∈ ((cfg1.win 3).blk t).view.set ↔ ∀ a : Fin 2, win1_3.index t a * S5000x2.size a ≤ (i a).val ∧ (i a).val < win1_3.index t a * S5000x2.size a + S5000x2.size a := by
  show i ∈ ((View.whole main_v45).slice (win1_3.rect t)).set ↔ _
  rw [View.set_slice_whole, Rect.mem_set_unit]
  exact Iff.rfl

/-- The twenty row blocks tile the array: row r lies in block r / 5000. -/
theorem cover (i : S100000x2.Idx) :
    ∃ t : Fin cfg1.N, (cfg1.win 3).flush t = true ∧ i ∈ ((cfg1.win 3).blk t).view.set := by
  have hi0 : (i 0).val < 100000 := (i 0).isLt
  have hi1 : (i 1).val < 2 := (i 1).isLt
  have hN : cfg1.N = 20 := N_1
  let t : Fin cfg1.N := ⟨(i 0).val / 5000, by omega⟩
  have ht : t.val = (i 0).val / 5000 := rfl
  obtain ⟨e0, e1, e2, e3, e4, e5, e6, e7⟩ := idx_facts t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 2 ≤ (i 1).val ∧ (i 1).val < win1_3.index t (1 : Fin 2) * 2 + 2; omega

/-- After the region its output array is the whole layer applied to the three input arrays as the region found them. -/
theorem final (c : Dev nD) :
    (dat1 V c).arrAt 3 cfg1.N = matProd (biasRelu (V c main_v43) (rowVec (V c main_v44))) (V c main_arg4) :=
  (dat1 V c).arrAt_eq_of_cover 3 (matProd (biasRelu (V c main_v43) (rowVec (V c main_v44))) (V c main_arg4))
    (fun t _ => flushed_eq V c t) cover

end Cert.KernelIdeal.Region1

end
-- ==== Proof.RefValue.lean ====
/-
  The reference's dense stages, and its two copies of the graph normalisation.

  The reference is two graph-convolution layers. Each layer multiplies the node features by a weight matrix, gathers
  the rows at the edges' source nodes, scales each by the edge's normalisation, sums them into the edges' destination
  nodes, and adds a bias; between the layers it takes the positive part. Read entry by entry at the ideal values, the
  first product is `matProd x W1`, the bias-then-positive-part of the aggregated features is `biasRelu`, and the second
  product is `matProd` of that by W2. The reference computes the edge lists with self loops and the normalisation once
  per layer, by the same operations from the same edge array: the second layer's copies are the first layer's.
-/
import proofs.«142459_j87299505259013_1_alg».proof.Proof.RefReadP
import proofs.«142459_j87299505259013_1_alg».proof.Proof.LibDense

noncomputable section

namespace Cert.ReferenceIdeal.RefValue

open Idealize.ShloMosaic Idealize.ShloMosaic.ValueIdx
open Cert.ReferenceIdeal Cert.ReferenceIdeal.ReadP Cert.Dense

/-- The first layer's linear map: x · W1. -/
theorem linear1_eq (x0 : (⟨S100000x16, .f32⟩ : BufTy).Contents (Elt Ideal)) (x2 : (⟨S16x32, .f32⟩ : BufTy).Contents (Elt Ideal)) :
    val_main_v4 (F := Ideal) x0 x2 = matProd x0 x2 := by
  unfold val_main_v4
  exact dotGeneral_eq_matProd _ rfl x0 x2

/-- The bias of the first layer added along the rows of the aggregated features, then the positive part. -/
theorem hidden_eq (x0 : (⟨S100000x16, .f32⟩ : BufTy).Contents (Elt Ideal)) (x1 : (⟨S2x3200000, .i32⟩ : BufTy).Contents (Elt Ideal))
    (x2 : (⟨S16x32, .f32⟩ : BufTy).Contents (Elt Ideal)) (x3 : (⟨S32, .f32⟩ : BufTy).Contents (Elt Ideal)) :
    val_main_v47 (F := Ideal) x0 x1 x2 x3 = biasRelu (val_main_v43 (F := Ideal) x0 x1 x2) x3 := by
  funext i
  obtain ⟨r, k, rfl⟩ : ∃ (r : Fin 100000) (k : Fin 32), i = ix2 r k := ⟨i 0, i 1, eq_ix2 i⟩
  rw [val_main_v47_apply, val_main_v46_apply, val_main_v45_apply, val_main_v44_apply, val_main_call1_v0_apply,
    val_main_call1_cst_apply, biasRelu_apply]
  have e : idx_main_v44 (idx_main_v45 (ix2 r k)) = ix1 k := funext fun a => Fin.ext (by match a with | ⟨0, _⟩ => rfl)
  rw [e]
  rfl

/-- The second layer's linear map applied to the hidden features. -/
theorem linear2_eq (x0 : (⟨S100000x16, .f32⟩ : BufTy).Contents (Elt Ideal)) (x1 : (⟨S2x3200000, .i32⟩ : BufTy).Contents (Elt Ideal))
    (x2 : (⟨S16x32, .f32⟩ : BufTy).Contents (Elt Ideal)) (x3 : (⟨S32, .f32⟩ : BufTy).Contents (Elt Ideal))
    (x4 : (⟨S32x2, .f32⟩ : BufTy).Contents (Elt Ideal)) :
    val_main_v48 (F := Ideal) x0 x1 x2 x3 x4 = matProd (biasRelu (val_main_v43 (F := Ideal) x0 x1 x2) x3) x4 := by
  unfold val_main_v48
  rw [hidden_eq]
  exact dotGeneral_eq_matProd _ rfl _ x4

variable {F : FTy → Type} [FloatOps F]

/-- The second layer's list of source nodes (edges, then one self loop per node) is the first layer's. -/
theorem src2_eq (x1 : (⟨S2x3200000, .i32⟩ : BufTy).Contents (Elt F)) : val_main_v50 (F := F) x1 = val_main_v6 (F := F) x1 := rfl

/-- The second layer's list of destination nodes is the first layer's. -/
theorem dst2_eq (x1 : (⟨S2x3200000, .i32⟩ : BufTy).Contents (Elt F)) : val_main_v51 (F := F) x1 = val_main_v7 (F := F) x1 := rfl

set_option maxHeartbeats 400000 in
/-- The second layer's edge normalisation (the product of the inverse square roots of the two end nodes' degrees) is the
    first layer's: the same operations on the same edge lists. -/
theorem norm2_eq (x1 : (⟨S2x3200000, .i32⟩ : BufTy).Contents (Elt F)) : val_main_v74 (F := F) x1 = val_main_v30 (F := F) x1 := rfl

end Cert.ReferenceIdeal.RefValue

end
-- ==== Proof.Bridge.lean ====
/-
  The kernel program's buffers, boundary by boundary, hold the reference's stages.

  The kernel program computes the edge lists (edges, then one self loop per node) and the edge normalisation on the
  host, runs the first tiled product, aggregates on the host (gather the source rows, scale, sum into the destination
  rows) and reshapes the bias to a row, runs the second tiled region, and aggregates again and adds the last bias on the
  host. The reference does the same with whole-array products and computes the edge lists and the normalisation once
  per layer. Walking the kernel program's fold from the launch memory: after the first host stretches the edge lists and
  the normalisation are the reference's; the first region leaves the reference's first product; the middle stretch
  leaves the reference's aggregated features and the bias as a row; the second region leaves the reference's second
  product of the positive part of features plus bias; the last stretch leaves the reference's result.
-/
import proofs.«142459_j87299505259013_1_alg».proof.Proof.Gen.KernelIdeal.Frame
import proofs.«142459_j87299505259013_1_alg».proof.Proof.Region0
import proofs.«142459_j87299505259013_1_alg».proof.Proof.Region1
import proofs.«142459_j87299505259013_1_alg».proof.Proof.RefValue

set_option maxRecDepth 16384

noncomputable section

namespace Cert.Bridge

open Idealize.ShloMosaic Idealize.ShloMosaic.TcCoe Idealize.ShloMosaic.ValueIdx Idealize.ShloMosaic.StableHlo
open Idealize.SL.Sem
open Cert.KernelIdeal Cert.KernelIdeal.Gen Cert.Dense
open Cert.ReferenceIdeal.ReadP

variable (m : (ℓ : Loc nD τ sig) → Buf (Elt Ideal) ℓ) (ρ : Dev nD → PrngReg) (c : Dev nD)

/-! ## The six arguments as launched -/

abbrev x0 : (⟨S100000x16, .f32⟩ : BufTy).Contents (Elt Ideal) := m ((c : Thread nD τ).loc main_arg0)
abbrev x1 : (⟨S2x3200000, .i32⟩ : BufTy).Contents (Elt Ideal) := m ((c : Thread nD τ).loc main_arg1)
abbrev x2 : (⟨S16x32, .f32⟩ : BufTy).Contents (Elt Ideal) := m ((c : Thread nD τ).loc main_arg2)
abbrev x3 : (⟨S32, .f32⟩ : BufTy).Contents (Elt Ideal) := m ((c : Thread nD τ).loc main_arg3)
abbrev x4 : (⟨S32x2, .f32⟩ : BufTy).Contents (Elt Ideal) := m ((c : Thread nD τ).loc main_arg4)
abbrev x5 : (⟨S2, .f32⟩ : BufTy).Contents (Elt Ideal) := m ((c : Thread nD τ).loc main_arg5)

/-! ## Before the first region: the edge lists and the normalisation -/

theorem pre_arg0 : W3 m ρ c (Proc.devRef .tc main_arg0) = x0 m c := by
  show StableHlo.after hostOps0_2 (StableHlo.after hostOps0_1 (StableHlo.after hostOps0 (W0 m ρ c))) (Proc.devRef .tc main_arg0) = _
  simp only [hostOps0, hostOps0_1, hostOps0_2]
  after_results
theorem pre_arg2 : W3 m ρ c (Proc.devRef .tc main_arg2) = x2 m c := by
  show StableHlo.after hostOps0_2 (StableHlo.after hostOps0_1 (StableHlo.after hostOps0 (W0 m ρ c))) (Proc.devRef .tc main_arg2) = _
  simp only [hostOps0, hostOps0_1, hostOps0_2]
  after_results
theorem pre_arg3 : W3 m ρ c (Proc.devRef .tc main_arg3) = x3 m c := by
  show StableHlo.after hostOps0_2 (StableHlo.after hostOps0_1 (StableHlo.after hostOps0 (W0 m ρ c))) (Proc.devRef .tc main_arg3) = _
  simp only [hostOps0, hostOps0_1, hostOps0_2]
  after_results
theorem pre_arg4 : W3 m ρ c (Proc.devRef .tc main_arg4) = x4 m c := by
  show StableHlo.after hostOps0_2 (StableHlo.after hostOps0_1 (StableHlo.after hostOps0 (W0 m ρ c))) (Proc.devRef .tc main_arg4) = _
  simp only [hostOps0, hostOps0_1, hostOps0_2]
  after_results
theorem pre_arg5 : W3 m ρ c (Proc.devRef .tc main_arg5) = x5 m c := by
  show StableHlo.after hostOps0_2 (StableHlo.after hostOps0_1 (StableHlo.after hostOps0 (W0 m ρ c))) (Proc.devRef .tc main_arg5) = _
  simp only [hostOps0, hostOps0_1, hostOps0_2]
  after_results

/-- The list of source nodes: the edge array's first row, then every node once. -/
theorem pre_src : W3 m ρ c (Proc.devRef .tc main_v5) = val_main_v6 (F := Ideal) (x1 m c) := by
  show StableHlo.after hostOps0_2 (StableHlo.after hostOps0_1 (StableHlo.after hostOps0 (W0 m ρ c))) (Proc.devRef .tc main_v5) = _
  simp only [hostOps0, hostOps0_1, hostOps0_2]
  after_results
  rfl

/-- The list of destination nodes: the edge array's second row, then every node once. -/
theorem pre_dst : W3 m ρ c (Proc.devRef .tc main_v6) = val_main_v7 (F := Ideal) (x1 m c) := by
  show StableHlo.after hostOps0_2 (StableHlo.after hostOps0_1 (StableHlo.after hostOps0 (W0 m ρ c))) (Proc.devRef .tc main_v6) = _
  simp only [hostOps0, hostOps0_1, hostOps0_2]
  after_results
  rfl

/-! The normalisation, stage by stage: the degrees after the first host stretch, the inverse square roots (0 where the
    degree is not positive) after the second, the product over an edge's two end nodes after the third. -/

/-- Where the degree of a node — the number of edges into it, self loop included — is positive. -/
theorem deg_pos : W1 m ρ c (Proc.devRef .tc main_v12) = val_main_v13 (F := Ideal) (x1 m c) := by
  show StableHlo.after hostOps0 (W0 m ρ c) (Proc.devRef .tc main_v12) = _
  simp only [hostOps0]
  after_results
  rfl

/-- The inverse square root of every node's degree. -/
theorem deg_rsqrt : W1 m ρ c (Proc.devRef .tc main_v13) = val_main_v14 (F := Ideal) (x1 m c) := by
  show StableHlo.after hostOps0 (W0 m ρ c) (Proc.devRef .tc main_v13) = _
  simp only [hostOps0]
  after_results
  rfl

theorem zero_scalar : W1 m ρ c (Proc.devRef .tc main_cst_2) = val_main_cst_2 (F := Ideal) := by
  show StableHlo.after hostOps0 (W0 m ρ c) (Proc.devRef .tc main_cst_2) = _
  simp only [hostOps0]
  after_results
  rfl

theorem src1 : W1 m ρ c (Proc.devRef .tc main_v5) = val_main_v6 (F := Ideal) (x1 m c) := by
  show StableHlo.after hostOps0 (W0 m ρ c) (Proc.devRef .tc main_v5) = _
  simp only [hostOps0]
  after_results
  rfl

theorem dst1 : W1 m ρ c (Proc.devRef .tc main_v6) = val_main_v7 (F := Ideal) (x1 m c) := by
  show StableHlo.after hostOps0 (W0 m ρ c) (Proc.devRef .tc main_v6) = _
  simp only [hostOps0]
  after_results
  rfl

/-- The second host stretch — a select between the inverse square roots and a broadcast zero, by the degree mask —
    read over any contents of the buffers it reads. -/
theorem where_stretch (U : Valuation τ sig (Elt Ideal)) :
    StableHlo.after hostOps0_1 U (Proc.devRef .tc main_v14)
      = (select (U (Proc.devRef .tc main_v12)) (U (Proc.devRef .tc main_v13))
          (broadcastInDim S100000 ![] bcast_S_S100000 (id (U (Proc.devRef .tc main_cst_2)))) : S100000.Idx → EReal) := by
  simp only [hostOps0_1]
  after_results
  rfl

/-- The inverse square root of the degree where the degree is positive, 0 elsewhere. -/
theorem deg_inv_sqrt : W2 m ρ c (Proc.devRef .tc main_v14) = val_main_v15 (F := Ideal) (x1 m c) := by
  refine (where_stretch (W1 m ρ c)).trans ?_
  rw [deg_pos, deg_rsqrt, zero_scalar]
  rfl

theorem src2 : W2 m ρ c (Proc.devRef .tc main_v5) = val_main_v6 (F := Ideal) (x1 m c) := by
  show StableHlo.after hostOps0_1 (W1 m ρ c) (Proc.devRef .tc main_v5) = _
  have h := src1 m ρ c
  generalize W1 m ρ c = U at h ⊢
  simp only [hostOps0_1]
  after_results
  exact h

theorem dst2 : W2 m ρ c (Proc.devRef .tc main_v6) = val_main_v7 (F := Ideal) (x1 m c) := by
  show StableHlo.after hostOps0_1 (W1 m ρ c) (Proc.devRef .tc main_v6) = _
  have h := dst1 m ρ c
  generalize W1 m ρ c = U at h ⊢
  simp only [hostOps0_1]
  after_results
  exact h

set_option maxHeartbeats 1000000 in
/-- The edge normalisation: an edge's weight is the product of the inverse square roots of its two end nodes' degrees. -/
theorem pre_norm : W3 m ρ c (Proc.devRef .tc main_v29) = val_main_v30 (F := Ideal) (x1 m c) := by
  show StableHlo.after hostOps0_2 (W2 m ρ c) (Proc.devRef .tc main_v29) = _
  have h14 := deg_inv_sqrt m ρ c
  have h5 := src2 m ρ c
  have h6 := dst2 m ρ c
  generalize W2 m ρ c = U at h14 h5 h6 ⊢
  simp only [hostOps0_2]
  after_results
  rw [h14, h5, h6]
  rfl

/-! ## After the first region -/

/-- The first region leaves the first linear map of the node features. -/
theorem mid_linear1 : W4 m ρ c (Proc.devRef .tc main_v30) = val_main_v4 (F := Ideal) (x0 m c) (x2 m c) := by
  refine (W4_arr m ρ c 2).trans ((Region0.final (V3 m ρ) c).trans ?_)
  show matProd (W3 m ρ c (Proc.devRef .tc main_arg0)) (W3 m ρ c (Proc.devRef .tc main_arg2)) = _
  rw [pre_arg0, pre_arg2]
  exact (Cert.ReferenceIdeal.RefValue.linear1_eq _ _).symm

theorem mid_src : W4 m ρ c (Proc.devRef .tc main_v5) = val_main_v6 (F := Ideal) (x1 m c) :=
  (W4_of_ne m ρ c main_v5 (by decide)).trans (pre_src m ρ c)
theorem mid_dst : W4 m ρ c (Proc.devRef .tc main_v6) = val_main_v7 (F := Ideal) (x1 m c) :=
  (W4_of_ne m ρ c main_v6 (by decide)).trans (pre_dst m ρ c)
theorem mid_norm : W4 m ρ c (Proc.devRef .tc main_v29) = val_main_v30 (F := Ideal) (x1 m c) :=
  (W4_of_ne m ρ c main_v29 (by decide)).trans (pre_norm m ρ c)
theorem mid_arg3 : W4 m ρ c (Proc.devRef .tc main_arg3) = x3 m c :=
  (W4_of_ne m ρ c main_arg3 (by decide)).trans (pre_arg3 m ρ c)
theorem mid_arg4 : W4 m ρ c (Proc.devRef .tc main_arg4) = x4 m c :=
  (W4_of_ne m ρ c main_arg4 (by decide)).trans (pre_arg4 m ρ c)
theorem mid_arg5 : W4 m ρ c (Proc.devRef .tc main_arg5) = x5 m c :=
  (W4_of_ne m ρ c main_arg5 (by decide)).trans (pre_arg5 m ρ c)

/-! ## The middle host stretch: the first aggregation, and the bias as a row -/

set_option maxHeartbeats 1000000 in
/-- The aggregated features of the first layer. -/
theorem agg1 : W5 m ρ c (Proc.devRef .tc main_v43) = val_main_v43 (F := Ideal) (x0 m c) (x1 m c) (x2 m c) := by
  show StableHlo.after hostOps1 (W4 m ρ c) (Proc.devRef .tc main_v43) = _
  simp only [hostOps1]
  after_results
  rw [mid_linear1, mid_src, mid_dst, mid_norm]
  rfl

/-- The first bias, reshaped to one row. -/
theorem bias_row : W5 m ρ c (Proc.devRef .tc main_v44) = shapeCast S1x32 (x3 m c) shapeCasts_S32_S1x32 := by
  show StableHlo.after hostOps1 (W4 m ρ c) (Proc.devRef .tc main_v44) = _
  simp only [hostOps1]
  after_results
  rw [mid_arg3]
  rfl

theorem agg_src : W5 m ρ c (Proc.devRef .tc main_v5) = val_main_v6 (F := Ideal) (x1 m c) := by
  show StableHlo.after hostOps1 (W4 m ρ c) (Proc.devRef .tc main_v5) = _
  simp only [hostOps1]
  after_results
  exact mid_src m ρ c
theorem agg_dst : W5 m ρ c (Proc.devRef .tc main_v6) = val_main_v7 (F := Ideal) (x1 m c) := by
  show StableHlo.after hostOps1 (W4 m ρ c) (Proc.devRef .tc main_v6) = _
  simp only [hostOps1]
  after_results
  exact mid_dst m ρ c
theorem agg_norm : W5 m ρ c (Proc.devRef .tc main_v29) = val_main_v30 (F := Ideal) (x1 m c) := by
  show StableHlo.after hostOps1 (W4 m ρ c) (Proc.devRef .tc main_v29) = _
  simp only [hostOps1]
  after_results
  exact mid_norm m ρ c
theorem agg_arg4 : W5 m ρ c (Proc.devRef .tc main_arg4) = x4 m c := by
  show StableHlo.after hostOps1 (W4 m ρ c) (Proc.devRef .tc main_arg4) = _
  simp only [hostOps1]
  after_results
  exact mid_arg4 m ρ c
theorem agg_arg5 : W5 m ρ c (Proc.devRef .tc main_arg5) = x5 m c := by
  show StableHlo.after hostOps1 (W4 m ρ c) (Proc.devRef .tc main_arg5) = _
  simp only [hostOps1]
  after_results
  exact mid_arg5 m ρ c

/-- A vector reshaped to one row and read back along that row is the vector. -/
theorem rowVec_reshape (b : S32.Idx → EReal) : Region1.rowVec (shapeCast S1x32 b shapeCasts_S32_S1x32) = b := by
  funext j
  obtain ⟨k, rfl⟩ : ∃ k : Fin 32, j = ix1 k := ⟨j 0, eq_ix1 j⟩
  exact shapeCast_apply b shapeCasts_S32_S1x32 (ix2 (0 : Fin 1) k) (ix1 k) (by
    rw [Shape.rowMajor_val_two, Shape.rowMajor_val_one]; show k.val = 0 * 32 + k.val; omega)

/-! ## After the second region -/

/-- The second region leaves the second linear map of the hidden features. -/
theorem out_linear2 : W6 m ρ c (Proc.devRef .tc main_v45)
    = val_main_v48 (F := Ideal) (x0 m c) (x1 m c) (x2 m c) (x3 m c) (x4 m c) := by
  refine (W6_arr m ρ c 3).trans ((Region1.final (V5 m ρ) c).trans ?_)
  show matProd (biasRelu (W5 m ρ c (Proc.devRef .tc main_v43)) (Region1.rowVec (W5 m ρ c (Proc.devRef .tc main_v44))))
      (W5 m ρ c (Proc.devRef .tc main_arg4)) = _
  rw [agg1, bias_row, agg_arg4, rowVec_reshape]
  exact (Cert.ReferenceIdeal.RefValue.linear2_eq _ _ _ _ _).symm

theorem out_src : W6 m ρ c (Proc.devRef .tc main_v5) = val_main_v6 (F := Ideal) (x1 m c) :=
  (W6_of_ne m ρ c main_v5 (by decide)).trans (agg_src m ρ c)
theorem out_dst : W6 m ρ c (Proc.devRef .tc main_v6) = val_main_v7 (F := Ideal) (x1 m c) :=
  (W6_of_ne m ρ c main_v6 (by decide)).trans (agg_dst m ρ c)
theorem out_norm : W6 m ρ c (Proc.devRef .tc main_v29) = val_main_v30 (F := Ideal) (x1 m c) :=
  (W6_of_ne m ρ c main_v29 (by decide)).trans (agg_norm m ρ c)
theorem out_arg5 : W6 m ρ c (Proc.devRef .tc main_arg5) = x5 m c :=
  (W6_of_ne m ρ c main_arg5 (by decide)).trans (agg_arg5 m ρ c)

/-! ## The last host stretch: the second aggregation and the last bias -/

set_option maxHeartbeats 1000000 in
/-- The kernel program's result is the reference's result, as functions of the six arguments. -/
theorem result_eq : W7 m ρ c (Proc.devRef .tc main_v61)
    = val_main_v90 (F := Ideal) (x0 m c) (x1 m c) (x2 m c) (x3 m c) (x4 m c) (x5 m c) := by
  show StableHlo.after hostOps2 (W6 m ρ c) (Proc.devRef .tc main_v61) = _
  simp only [hostOps2]
  after_results
  rw [out_linear2, out_src, out_dst, out_norm, out_arg5,
    ← Cert.ReferenceIdeal.RefValue.src2_eq, ← Cert.ReferenceIdeal.RefValue.dst2_eq, ← Cert.ReferenceIdeal.RefValue.norm2_eq]
  rfl

end Cert.Bridge

end
-- ==== Proof.lean ====
/-
  Two graph-convolution layers: a kernel program with two tiled matrix products against a reference with whole ones.

  Both programs compute, for node features x, an edge list E (to which one self loop per node is added), weights W1, W2
  and biases b1, b2,

      out = A · (max(A · (x · W1) + b1, 0) · W2) + b2,      A = D^{-1/2} (Adj + I) D^{-1/2},

  where A is applied by gathering the source rows of each edge, scaling by the edge's normalisation and summing into
  the destination rows, and D is the degree of each node. The kernel program computes the two dense products
  x · W1 and max(· + b1, 0) · W2 block of 5000 rows by block, each block into a zero accumulator with its operands
  passed through a narrower float format; the reference computes each as one product. At the ideal values a change of
  float format is the identity and a product into a zero accumulator is the product, and a block of rows of a product
  is the product of that block of rows, so each tiled region leaves exactly the reference's product (Region0, Region1).
  Everything else — the edge lists, the degrees and normalisation, the two aggregations, the biases — is the same
  sequence of host operations in both programs (the reference repeats the edge lists and the normalisation for its
  second layer), so the results are equal as functions of the six arguments (Bridge). No law of arithmetic beyond
  0 + s = s is used, so the precondition (finite inputs) is not needed for the values.

  The kernel programs' frames are the generated ones; the reference's frame is its run with the result dropped; the
  idealization rewrote nothing, so there is nothing to preserve.
-/
import proofs.«142459_j87299505259013_1_alg».proof.Defs
import proofs.«142459_j87299505259013_1_alg».proof.Proof.Gen.Kernel
import proofs.«142459_j87299505259013_1_alg».proof.Proof.Gen.Kernel.Skeleton
import proofs.«142459_j87299505259013_1_alg».proof.Proof.Gen.Kernel.Launch
import proofs.«142459_j87299505259013_1_alg».proof.Proof.Gen.Kernel.Points
import proofs.«142459_j87299505259013_1_alg».proof.Proof.Gen.Kernel.Frame
import proofs.«142459_j87299505259013_1_alg».proof.Proof.Gen.KernelIdeal
import proofs.«142459_j87299505259013_1_alg».proof.Proof.Gen.KernelIdeal.Skeleton
import proofs.«142459_j87299505259013_1_alg».proof.Proof.Gen.KernelIdeal.Launch
import proofs.«142459_j87299505259013_1_alg».proof.Proof.Gen.KernelIdeal.Points
import proofs.«142459_j87299505259013_1_alg».proof.Proof.Gen.KernelIdeal.Frame
import proofs.«142459_j87299505259013_1_alg».proof.Proof.Gen.ReferenceIdeal
import proofs.«142459_j87299505259013_1_alg».proof.Proof.Gen.Pre_finite_inputs
import proofs.«142459_j87299505259013_1_alg».proof.Proof.KernelRun
import proofs.«142459_j87299505259013_1_alg».proof.Proof.RefRunP
import proofs.«142459_j87299505259013_1_alg».proof.Proof.RefReadP
import proofs.«142459_j87299505259013_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the six arguments both programs run, and the kernel program's result — the value its
    fold of host stretches and regions gives the result buffer — is the reference's result: both are the reference's
    last stage as a function of the arguments. -/
theorem algebraic : Cert.algebraic_KernelIdeal_ReferenceIdeal := by
  intro m ρ m' ρ' _ hagree
  refine ⟨fun c => Cert.KernelIdeal.Gen.W7 m ρ c (Proc.devRef .tc Cert.KernelIdeal.main_v61),
    Cert.KernelIdeal.Result.run_result m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v90_eq, (hagree c).1, (hagree c).2.1, (hagree c).2.2.1, (hagree c).2.2.2.1,
    (hagree c).2.2.2.2.1, (hagree c).2.2.2.2.2]
  exact (Cert.Bridge.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
